-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1 : Shape := ⟨1, ![1]⟩
abbrev S4095 : Shape := ⟨1, ![4095]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S1 : S_.BroadcastsInDim S1 (![] : Fin 0 → Fin S1.rank)
  reducesTo_S1_S_d0 : S1.ReducesTo [0] S_
  bcast_S_S4095 : S_.BroadcastsInDim S4095 (![] : Fin 0 → Fin S4095.rank)
  reducesTo_S4095_S_d0 : S4095.ReducesTo [0] S_

variable [Facts]

def fn_part1 {F : FTy → Type} [FloatOps F] (main_v13 : IVec S_ 1) (main_v16 : IVec S4095 1) : IVec S_ 1 :=
  let main_c_5 : IVec S_ 1 := constantI S_ 1 1#1
  let main_v17 : IVec S_ 1 := (fun x v => Host.reduce IntOp.andi x v reducesTo_S4095_S_d0 h_S_) main_v16 main_c_5
  let main_v18 : IVec S_ 1 := andi main_v13 main_v17
  main_v18

def fn {F : FTy → Type} [FloatOps F] (main_arg0 : FVec F S4096x8192 .f32) (main_arg1 : FVec F S1 .f32) (main_arg2 : FVec F S4095 .f32) (main_arg3 : FVec F S4095 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4095 .f32 := Host.absf main_arg2
  let main_cst_2 : FVec F S_ .f32 := constant S_ .f32 0x7F800000#32
  let main_v10 : FVec F S4095 .f32 := broadcastInDim S4095 ![] bcast_S_S4095 main_cst_2
  let main_v11 : IVec S4095 1 := cmpf .olt main_v9 main_v10
  let main_c_3 : IVec S_ 1 := constantI S_ 1 1#1
  let main_v12 : IVec S_ 1 := (fun x v => Host.reduce IntOp.andi x v reducesTo_S4095_S_d0 h_S_) main_v11 main_c_3
  let main_v13 : IVec S_ 1 := andi main_v8 main_v12
  let main_v14 : FVec F S4095 .f32 := Host.absf main_arg3
  let main_cst_4 : FVec F S_ .f32 := constant S_ .f32 0x7F800000#32
  let main_v15 : FVec F S4095 .f32 := broadcastInDim S4095 ![] bcast_S_S4095 main_cst_4
  let main_v16 : IVec S4095 1 := cmpf .olt main_v14 main_v15
  fn_part1 (F := F) main_v13 main_v16
-- ==== Kernel.lean ====
abbrev S4096x8192 : Shape := ⟨2, ![4096, 8192]⟩
abbrev S1 : Shape := ⟨1, ![1]⟩
abbrev S4095 : Shape := ⟨1, ![4095]⟩
abbrev S_ : Shape := ⟨0, ![]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 29
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S1, .f32⟩
  | .hbm, ⟨2, _⟩ => ⟨S4095, .f32⟩
  | .hbm, ⟨3, _⟩ => ⟨S4095, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S8191, .f32⟩
  | .hbm, ⟨8, _⟩ => ⟨S4096, .i32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S4096x4096, .f32⟩
  | .hbm, ⟨26, _⟩ => ⟨S4096x4096, .bf16⟩
  | .hbm, ⟨27, _⟩ => ⟨S4096x8192, .bf16⟩
  | .hbm, ⟨28, _⟩ => ⟨S4096x8192, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1 : S_.BroadcastsInDim S1 (![] : Fin 0 → Fin S1.rank)
  concatenates_S4095_S1_S4095_S8191_d0 : Shape.Concatenates [S4095, S1, S4095] S8191 0
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  gather_S8191_S4096x4096x1_S4096x4096_n_0_n_n_0_2_1_wf : GatherDims.WF S8191 S4096x4096x1 S4096x4096 [] [0] [] [0] [] 2 ![1]
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x8192.size a
  hwx0_1 : ∀ i : grid0.Coords, EltTy.bits .bf16 = 32 ∨ (Rect.block (s := S4096x8192) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x8192.size a
  hwx0_2 : ∀ i : grid0.Coords, EltTy.bits .f32 = 32 ∨ (Rect.block (s := S4096x8192) S512x1024.size (cc0_transform_2 i) (hinb0_2 i)).WholeWords (EltTy.packing .f32)

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v18) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S1 : Shape := ⟨1, ![1]⟩
abbrev S4095 : Shape := ⟨1, ![4095]⟩
abbrev S_ : Shape := ⟨0, ![]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1, .f32⟩
  | .hbm, ⟨2, _⟩ => ⟨S4095, .f32⟩
  | .hbm, ⟨3, _⟩ => ⟨S4095, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S8191, .f32⟩
  | .hbm, ⟨8, _⟩ => ⟨S4096, .i32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S4096x4096, .f32⟩
  | .hbm, ⟨26, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S4095_S1_S4095_S8191_d0 : Shape.Concatenates [S4095, S1, S4095] S8191 0
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  gather_S8191_S4096x4096x1_S4096x4096_n_0_n_n_0_2_1_wf : GatherDims.WF S8191 S4096x4096x1 S4096x4096 [] [0] [] [0] [] 2 ![1]
  dot_S4096x4096_S4096x8192_S4096x8192_1_0_0_1_n_n_wf : DotDims.WF S4096x4096 S4096x8192 S4096x8192 [1] [0] [0] [1] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.WordRun.lean ====
/-
  The tiled matrix product as a run, for the program as printed (its floats machine words). @main first builds, by host operations, the 4096 x 4096 Toeplitz matrix T
  (T[i, j] = pattern[4095 - i + j], pattern = upper ++ (diag + 1) ++ lower) and rounds T and x to bf16; then one
  region on an 8 x 8 grid multiplies: at grid point (a, b) the body loads the 512 x 4096 band of rows a of T and the
  4096 x 1024 band of columns b of x, forms their product from a zero accumulator and stores it whole as block (a, b)
  of the 4096 x 8192 result.
  This module states, for any float instance, what every weakly fair execution of @main does: it ends, nothing
  faults, the result array holds, block by block, the body's product of the two bands, and the four argument arrays
  are as they were. The body's one store covers its output block, so the block after the body is that store's payload;
  the body also loads its output block once, a value it never uses.
-/
import proofs.«105865_j1580547974913_1_alg».proof.Proof.Gen.Kernel.Launch
import proofs.«105865_j1580547974913_1_alg».proof.Proof.Gen.Kernel.Skeleton
import proofs.«105865_j1580547974913_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiled

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the host operations that build
    T and round the two factors. -/
abbrev V (c : Dev nD) (b : Ref sig .tc) : Buf (Elt F) ((c : Thread nD τ).loc b) :=
  StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results, never x: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the diagonal entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the lower diagonals. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the upper diagonals. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The bands -/

/-- Window `w`'s block at grid point `t`, cut out of its array as the region finds it: for the first window the
    band of 512 rows of the rounded T, for the second the band of 1024 columns of the rounded x. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The band of T is in its staging buffer at every point, fetched there or still there from the point before (the
    band changes only when the row coordinate does). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The band of x is in its staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- None of the four argument arrays is an array of the region (it multiplies the ROUNDED copies), so each ends as the
    region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body -/

/-- The whole band of T, the whole band of x, the whole output block: the three rectangles the body reads and writes. -/
abbrev rowBand : Rect S512x4096 := Rect.unit (s := S512x4096) ![0, 0] S512x4096.size Facts₀.inb_S512x4096_S512x4096_0_0
abbrev colBand : Rect S4096x1024 := Rect.unit (s := S4096x1024) ![0, 0] S4096x1024.size Facts₀.inb_S4096x1024_S4096x1024_0_0
abbrev outBlock : Rect S512x1024 := Rect.unit (s := S512x1024) ![0, 0] S512x1024.size Facts₀.inb_S512x1024_S512x1024_0_0

/-- The output block after the body: its one store, the product of the two bands. -/
def product (x0 : Vec F S512x4096 .bf16) (x1 : Vec F S4096x1024 .bf16) : Vec F S512x1024 .f32 :=
  View.canon [⟨outBlock, k0_pay1 (View.ld x0 rowBand) (View.ld x1 colBand)⟩]

/-- That store covers the block. -/
theorem product_covers (p0 : Vec F S512x1024 .f32) (y : S512x1024.Idx) :
    ∃ pc ∈ ([⟨outBlock, p0⟩] : List (View.Piece (Elt F) S512x1024 .f32)), y ∈ pc.1.set :=
  View.cover_of_tiled [⟨outBlock, p0⟩] S512x1024.size (by rfl) y

set_option maxHeartbeats 1000000 in
/-- The body on whole staging buffers, the two bands at contents `x0`, `x1` and the output block at anything, leaves
    the bands as they were and the output block at their product. -/
theorem sound_kernel (c : Dev nD) (E : Set ℕ) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole)
    (x0 : Vec F S512x4096 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (product x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_covers _)

/-! ## The proof data of the region -/

/-- On core `c`: the arrays as the region finds them; after the body at point `t` each band still in its buffer and
    the output block at the bands' product; the rest of the core's memory untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => product (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = product (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, nothing faulting, with the three arrays of the region at what the proof
    data says — the result array its entry contents overwritten, block by block, by the bands' products — and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Tiled

end
-- ==== Proof.IdealRun.lean ====
/-
  The tiled matrix product as a run. @main first builds, by host operations, the 4096 x 4096 Toeplitz matrix T
  (T[i, j] = pattern[4095 - i + j], pattern = upper ++ (diag + 1) ++ lower) and rounds T and x to bf16; then one
  region on an 8 x 8 grid multiplies: at grid point (a, b) the body loads the 512 x 4096 band of rows a of T and the
  4096 x 1024 band of columns b of x, forms their product from a zero accumulator and stores it whole as block (a, b)
  of the 4096 x 8192 result.
  This module states, for any float instance, what every weakly fair execution of @main does: it ends, nothing
  faults, the result array holds, block by block, the body's product of the two bands, and the four argument arrays
  are as they were. The body's one store covers its output block, so the block after the body is that store's payload;
  the body also loads its output block once, a value it never uses.
-/
import proofs.«105865_j1580547974913_1_alg».proof.Proof.Gen.KernelIdeal.Launch
import proofs.«105865_j1580547974913_1_alg».proof.Proof.Gen.KernelIdeal.Skeleton
import proofs.«105865_j1580547974913_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiled

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents rewritten by the host operations that build
    T and round the two factors. -/
abbrev V (c : Dev nD) (b : Ref sig .tc) : Buf (Elt F) ((c : Thread nD τ).loc b) :=
  StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write only their own results, never x: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the diagonal entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the lower diagonals. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the upper diagonals. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The bands -/

/-- Window `w`'s block at grid point `t`, cut out of its array as the region finds it: for the first window the
    band of 512 rows of the rounded T, for the second the band of 1024 columns of the rounded x. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The band of T is in its staging buffer at every point, fetched there or still there from the point before (the
    band changes only when the row coordinate does). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The band of x is in its staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- None of the four argument arrays is an array of the region (it multiplies the ROUNDED copies), so each ends as the
    region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body -/

/-- The whole band of T, the whole band of x, the whole output block: the three rectangles the body reads and writes. -/
abbrev rowBand : Rect S512x4096 := Rect.unit (s := S512x4096) ![0, 0] S512x4096.size Facts₀.inb_S512x4096_S512x4096_0_0
abbrev colBand : Rect S4096x1024 := Rect.unit (s := S4096x1024) ![0, 0] S4096x1024.size Facts₀.inb_S4096x1024_S4096x1024_0_0
abbrev outBlock : Rect S512x1024 := Rect.unit (s := S512x1024) ![0, 0] S512x1024.size Facts₀.inb_S512x1024_S512x1024_0_0

/-- The output block after the body: its one store, the product of the two bands. -/
def product (x0 : Vec F S512x4096 .bf16) (x1 : Vec F S4096x1024 .bf16) : Vec F S512x1024 .f32 :=
  View.canon [⟨outBlock, k0_pay1 (View.ld x0 rowBand) (View.ld x1 colBand)⟩]

/-- That store covers the block. -/
theorem product_covers (p0 : Vec F S512x1024 .f32) (y : S512x1024.Idx) :
    ∃ pc ∈ ([⟨outBlock, p0⟩] : List (View.Piece (Elt F) S512x1024 .f32)), y ∈ pc.1.set :=
  View.cover_of_tiled [⟨outBlock, p0⟩] S512x1024.size (by rfl) y

set_option maxHeartbeats 1000000 in
/-- The body on whole staging buffers, the two bands at contents `x0`, `x1` and the output block at anything, leaves
    the bands as they were and the output block at their product. -/
theorem sound_kernel (c : Dev nD) (E : Set ℕ) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole)
    (x0 : Vec F S512x4096 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (product x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_covers _)

/-! ## The proof data of the region -/

/-- On core `c`: the arrays as the region finds them; after the body at point `t` each band still in its buffer and
    the output block at the bands' product; the rest of the core's memory untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => product (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = product (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, nothing faulting, with the three arrays of the region at what the proof
    data says — the result array its entry contents overwritten, block by block, by the bands' products — and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Tiled

end
-- ==== Proof.MatProd.lean ====
/-
  The specification: the product of a 4096 x 4096 matrix with a 4096 x 8192 matrix over the extended reals, entry by
  entry the sum over the shared index k of A[r, k] * B[k, s]. Both programs compute this function of the Toeplitz matrix
  and of x; neither the order of the 4096 terms nor how the result is cut into blocks enters it.
-/
import Idealize.ShloMosaic.PureOps.Ideal
import Idealize.ShloMosaic.Lib.ValueIdx

noncomputable section

namespace Cert.Spec

open Idealize.ShloMosaic Idealize.ShloMosaic.ValueIdx

/-- Entry (r, s) of A · B: the sum over k of A[r, k] · B[k, s]. -/
def matProd (A : (⟨2, ![4096, 4096]⟩ : Shape).Idx → EReal) (B : (⟨2, ![4096, 8192]⟩ : Shape).Idx → EReal) :
    (⟨2, ![4096, 8192]⟩ : Shape).Idx → EReal :=
  fun i => ∑ k : Fin 4096, A (ix2 (⟨(i 0).val, (i 0).isLt⟩ : Fin 4096) k) * B (ix2 k (⟨(i 1).val, (i 1).isLt⟩ : Fin 8192))

end Cert.Spec

end
-- ==== Proof.IdealBlocks.lean ====
/-
  The result array of the tiled product, as one function. At grid point t = (a, b) the body's store is the product of
  rows 512a .. 512a+511 of the rounded Toeplitz matrix with columns 1024b .. 1024b+1023 of the rounded x: entry (p, q) of
  the block is the sum over k of T[512a + p, k] * x[k, 1024b + q], which is entry (512a + p, 1024b + q) of the whole
  product. The 64 blocks tile the 4096 x 8192 array, so after the run the array IS the product.
-/
import proofs.«105865_j1580547974913_1_alg».proof.Proof.IdealRun
import proofs.«105865_j1580547974913_1_alg».proof.Proof.MatProd
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Cert.KernelIdeal.Tiled
open Idealize.ShloMosaic Idealize.ShloMosaic.TcCoe Idealize.SL.Sem Idealize.ShloMosaic.ValueIdx
open Idealize.ShloMosaic.Pipeline (Dat)

/-! ## The body's product at an index -/

theorem lhs_row (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_contr (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs_contr (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs_col (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Entry (p, q) of the body's store: the sum over k of band-of-T[p, k] times band-of-x[k, q] (the accumulator is zero,
    the casts of the two bands to their own shapes change nothing). -/
theorem pay_apply (x0 : Vec Ideal S512x4096 .bf16) (x1 : Vec Ideal S4096x1024 .bf16) (p : Fin 512) (q : Fin 1024) :
    k0_pay1 (F := Ideal) x0 x1 (ix2 p q) = ∑ k : Fin 4096, x0 (ix2 p k) * x1 (ix2 k q) := by
  unfold k0_pay1
  simp only [shapeCast_self, matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k := funext fun a => Fin.ext (by
    match a with
    | ⟨0, _⟩ => exact lhs_row _ _
    | ⟨1, _⟩ => exact (lhs_contr _ _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q := funext fun a => Fin.ext (by
    match a with
    | ⟨0, _⟩ => exact (rhs_contr _ _).trans hk
    | ⟨1, _⟩ => exact rhs_col _ _)
  rw [el, er]

/-- An entry of the body's store is an entry of the whole product A · B, when the band of T holds the rows of A and
    the band of x the columns of B that the entry's position in the whole array names. -/
theorem block_entry (A : (⟨2, ![4096, 4096]⟩ : Shape).Idx → EReal) (B : (⟨2, ![4096, 8192]⟩ : Shape).Idx → EReal)
    (x0 : Vec Ideal S512x4096 .bf16) (x1 : Vec Ideal S4096x1024 .bf16)
    (j : S512x1024.Idx) (i : (⟨2, ![4096, 8192]⟩ : Shape).Idx) (p : Fin 512) (q : Fin 1024) (hj : j = ix2 p q)
    (h0 : ∀ k : Fin 4096, x0 (ix2 p k) = A (ix2 (⟨(i 0).val, (i 0).isLt⟩ : Fin 4096) k))
    (h1 : ∀ k : Fin 4096, x1 (ix2 k q) = B (ix2 k (⟨(i 1).val, (i 1).isLt⟩ : Fin 8192))) :
    k0_pay1 (F := Ideal) x0 x1 j = Cert.Spec.matProd A B i := by
  subst hj
  rw [pay_apply]
  unfold Cert.Spec.matProd
  exact Finset.sum_congr rfl fun k _ => by rw [h0 k, h1 k]

/-! ## The index maps over the grid -/

theorem zero_offsets : (![0, 0] : Fin 2 → Nat) = fun _ => 0 := funext fun a => by fin_cases a <;> rfl

/-- At every grid point the band of T has the output block's row index and column index 0, the band of x row index 0
    and the output block's column index, and the output block's two indices are at most 7. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7
    ∧ win0_2.index t (1 : Fin 2) ≤ 7 :=
  (by decide +kernel : ∀ t : Fin grid0.N, _)

/-- Every pair of block indices is some grid point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

variable (m : (ℓ : Loc nD τ sig) → Buf (Elt Ideal) ℓ) (ρ : Dev nD → PrngReg)

/-- The rounded Toeplitz matrix and the rounded x as the region finds them, as arrays of extended reals. -/
abbrev lhsArr (c : Dev nD) : (⟨2, ![4096, 4096]⟩ : Shape).Idx → EReal := V m c main_v18
abbrev rhsArr (c : Dev nD) : (⟨2, ![4096, 8192]⟩ : Shape).Idx → EReal := V m c main_v19

/-! ## What a grid point writes back -/

/-- Point `t` writes back block `t` of the whole product. -/
theorem flushed_eq (c : Dev nD) (t : Fin cfg0.N) :
    (dats m 0 c).flushed 2 t = ((cfg0.win 2).blk t).view.read (Elt Ideal) (Cert.Spec.matProd (lhsArr m c) (rhsArr m c)) := by
  show (cfg0.win 2).cut (grid0.coords t) ((dats m 0 c).after 2 t) = _
  rw [after0_2]
  unfold product
  rw [View.canon_unit_zero zero_offsets]
  simp only [View.ld_unit_zero (S := S512x4096) zero_offsets, View.ld_unit_zero (S := S4096x1024) zero_offsets]
  obtain ⟨e0, e1, e2, e3, e4, e5⟩ := index_facts t
  funext j
  show k0_pay1 (F := Ideal) (iblk m c 0 t) (iblk m c 1 t) j = Cert.Spec.matProd (lhsArr m c) (rhsArr m c) (((cfg0.win 2).blk t).view.emb j)
  refine block_entry (lhsArr m c) (rhsArr m c) (iblk m c 0 t) (iblk m c 1 t) j (((cfg0.win 2).blk t).view.emb j) (j 0) (j 1)
    (funext fun a => by match a with | ⟨0, _⟩ => rfl | ⟨1, _⟩ => rfl) (fun k => ?_) (fun k => ?_)
  · show V m c main_v18 (((cfg0.win 0).blk t).view.emb (ix2 (j 0) k)) = V m c main_v18 _
    refine congrArg (V m c main_v18) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * k.val = k.val; omega
  · show V m c main_v19 (((cfg0.win 1).blk t).view.emb (ix2 k (j 1))) = V m c main_v19 _
    refine congrArg (V m c main_v19) (funext fun a => Fin.ext ?_)
    match a with
    | ⟨0, _⟩ => show win0_1.index t (0 : Fin 2) * 4096 + 1 * k.val = k.val; omega
    | ⟨1, _⟩ => show win0_1.index t (1 : Fin 2) * 1024 + 1 * (j 1).val = win0_2.index t (1 : Fin 2) * 1024 + 1 * (j 1).val; omega

/-! ## The blocks tile the array -/

/-- An index of the result array is in point `t`'s block iff each coordinate is in the block's range on its axis. -/
theorem mem_block (t : Fin cfg0.N) (i : S4096x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v20).slice (win0_2.rect t)).set ↔ _
  rw [View.set_slice_whole, Rect.mem_set_unit]
  exact Iff.rfl

/-- Every index of the result array is in the block of the point with block indices (row / 512, column / 1024). -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the run the result array is the product of the rounded Toeplitz matrix and the rounded x. -/
theorem final (c : Dev nD) : (dats m 0 c).arrAt 2 cfg0.N = Cert.Spec.matProd (lhsArr m c) (rhsArr m c) :=
  (dats m 0 c).arrAt_eq_of_cover 2 _ (fun t _ => flushed_eq m c t) covered

end Cert.KernelIdeal.Blocks

end
-- ==== Proof.IdealOperands.lean ====
/-
  The Toeplitz matrix the host operations build, and what the region finds in its two operand arrays.
  pattern = upper ++ (diag + 1) ++ lower has 8191 entries; offs[i, j] = 4095 - i + j lies in 0 .. 8190, and the
  program, as numpy indexing does, adds 8191 to a negative offset before gathering; T[i, j] = pattern[offs[i, j]].
  The region multiplies the copies of T and of x rounded to bf16; over the extended reals rounding changes nothing,
  so the result array is the product T · x.
-/
import proofs.«105865_j1580547974913_1_alg».proof.Proof.IdealBlocks
import Idealize.ShloMosaic.Lib.StableHlo.Run

set_option maxRecDepth 16384

noncomputable section

namespace Cert.KernelIdeal.Result

open Cert.KernelIdeal Cert.KernelIdeal.Facts₀ Cert.KernelIdeal.Tiled Cert.KernelIdeal.Blocks
open Idealize.ShloMosaic Idealize.ShloMosaic.TcCoe Idealize.SL.Sem Idealize.ShloMosaic.StableHlo
open Idealize.ShloMosaic.Pipeline (Dat)

/-! ## The Toeplitz matrix, as the host operations build it -/

/-- upper ++ (diag + 1) ++ lower. -/
def pattern (diag : (⟨S1, .f32⟩ : BufTy).Contents (Elt Ideal)) (lower upper : (⟨S4095, .f32⟩ : BufTy).Contents (Elt Ideal)) :
    (⟨S8191, .f32⟩ : BufTy).Contents (Elt Ideal) :=
  concatenate S8191 0 [⟨S4095, upper⟩, ⟨S1, addf diag (broadcastInDim S1 ![] bcast_S_S1 (constant (F := Ideal) S_ .f32 0x3F800000#32))⟩, ⟨S4095, lower⟩]
    concatenates_S4095_S1_S4095_S8191_d0

/-- offs[i, j] = 4095 - i + j, in 32-bit integers. -/
def offs : (⟨S4096x4096, .i32⟩ : BufTy).Contents (Elt Ideal) :=
  addi
    (broadcastInDim S4096x4096 ![0, 1] bcast_S4096x1_S4096x4096_0_1
      (subi (broadcastInDim S4096x1 ![] bcast_S_S4096x1 (constantI S_ 32 4095#32))
        (broadcastInDim S4096x1 ![0] bcast_S4096_S4096x1_0 (iotaInDim S4096 32 0))))
    (broadcastInDim S4096x4096 ![0, 1] bcast_S1x4096_S4096x4096_0_1
      (broadcastInDim S1x4096 ![1] bcast_S4096_S1x4096_1 (iotaInDim S4096 32 0)))

/-- A negative offset is moved up by the pattern's length. -/
def wrapped : (⟨S4096x4096, .i32⟩ : BufTy).Contents (Elt Ideal) :=
  select (cmpi .slt offs (broadcastInDim S4096x4096 ![] bcast_S_S4096x4096 (constantI S_ 32 0#32)))
    (addi offs (broadcastInDim S4096x4096 ![] bcast_S_S4096x4096 (constantI S_ 32 8191#32)))
    offs

/-- T[i, j] = pattern[wrapped[i, j]]. -/
def toeplitz (diag : (⟨S1, .f32⟩ : BufTy).Contents (Elt Ideal)) (lower upper : (⟨S4095, .f32⟩ : BufTy).Contents (Elt Ideal)) :
    (⟨S4096x4096, .f32⟩ : BufTy).Contents (Elt Ideal) :=
  Host.gather gather_S8191_S4096x4096x1_S4096x4096_n_0_n_n_0_2_1 (pattern diag lower upper)
    (broadcastInDim S4096x4096x1 ![0, 1] bcast_S4096x4096_S4096x4096x1_0_1 wrapped)

/-- The third entry of a literal triple. -/
theorem triple_two {α : Type} (a b c : α) : (![a, b, c] : Fin 3 → α) 2 = c := rfl

/-- Over the extended reals rounding an array to bf16 changes nothing. -/
theorem rounding_id {s : Shape} (X : FVec Ideal s .f32) (h : FTy.bits .bf16 < FTy.bits .f32) :
    (truncf (F := Ideal) (s := s) (φ := .f32) .bf16 X h : s.Idx → EReal) = X :=
  funext fun i => ValueIdx.truncf_apply X h i

variable (m : (ℓ : Loc nD τ sig) → Buf (Elt Ideal) ℓ)

/-! ## The region's two operand arrays -/

set_option maxHeartbeats 4000000 in
/-- The region's first operand is T rounded to bf16: each host operation's result read at its own buffer, the three
    pieces of the pattern read at theirs. -/
theorem lhsArr_eq (c : Dev nD) :
    lhsArr m c = truncf (F := Ideal) (s := S4096x4096) (φ := .f32) .bf16
      (toeplitz (m ((c : Thread nD τ).loc main_arg1)) (m ((c : Thread nD τ).loc main_arg2)) (m ((c : Thread nD τ).loc main_arg3))) bitsLt_bf16_f32 := by
  show StableHlo.after Gen.hostOps0 (fun b => m (c, b)) (Proc.devRef .tc main_v18) = _
  dsimp only [Gen.hostOps0]
  after_results_simp
  dsimp only [Matrix.cons_val_zero, Matrix.cons_val_one, triple_two]
  repeat (first
    | rw [binary_result] | rw [unary_result] | rw [nullary_result]
    | (rw [binary_result_ne]; rotate_left; decide)
    | (rw [unary_result_ne]; rotate_left; decide)
    | (rw [nullary_result_ne]; rotate_left; decide))
  rfl

set_option maxHeartbeats 4000000 in
/-- The region's second operand is x rounded to bf16. -/
theorem rhsArr_eq (c : Dev nD) :
    rhsArr m c = truncf (F := Ideal) (s := S4096x8192) (φ := .f32) .bf16 (m ((c : Thread nD τ).loc main_arg0)) bitsLt_bf16_f32 := by
  show StableHlo.after Gen.hostOps0 (fun b => m (c, b)) (Proc.devRef .tc main_v19) = _
  dsimp only [Gen.hostOps0]
  after_results_simp

end Cert.KernelIdeal.Result

end
-- ==== Proof.IdealValue.lean ====
/-
  The kernel's run with its result named: the result array ends at T · x, T the Toeplitz matrix the host operations
  build. The region multiplies the copies of T and x rounded to bf16, and over the extended reals rounding is the identity.
-/
import proofs.«105865_j1580547974913_1_alg».proof.Proof.IdealOperands

set_option maxRecDepth 16384

noncomputable section

namespace Cert.KernelIdeal.Result

open Cert.KernelIdeal Cert.KernelIdeal.Facts₀ Cert.KernelIdeal.Tiled Cert.KernelIdeal.Blocks
open Idealize.ShloMosaic Idealize.ShloMosaic.TcCoe Idealize.SL.Sem

variable (m : (ℓ : Loc nD τ sig) → Buf (Elt Ideal) ℓ) (ρ : Dev nD → PrngReg)

/-- After the run the result array is T · x. -/
theorem result_eq (c : Dev nD) :
    (dats m 0 c).arrAt 2 cfg0.N
      = Cert.Spec.matProd (toeplitz (m ((c : Thread nD τ).loc main_arg1)) (m ((c : Thread nD τ).loc main_arg2)) (m ((c : Thread nD τ).loc main_arg3)))
          (m ((c : Thread nD τ).loc main_arg0)) := by
  rw [final, lhsArr_eq, rhsArr_eq, rounding_id, rounding_id]

/-- Every weakly fair execution of the kernel's @main ends, nothing faulting, with the result array at T · x and the
    four arguments as they were. -/
theorem run : θ_run defs (onTc (τ := τ) (main (F := Ideal))) ⟨m, fun _ => 0, ρ⟩ fun r => ∀ c : Dev nD,
      r.2.mem ((c : Thread nD τ).loc main_v20)
        = Cert.Spec.matProd (toeplitz (m ((c : Thread nD τ).loc main_arg1)) (m ((c : Thread nD τ).loc main_arg2)) (m ((c : Thread nD τ).loc main_arg3)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).1 2).trans (result_eq m c),
       ((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).2 main_arg2 (Pipeline.mem_restRefs_of main_arg2 (by decide) (by decide))).trans (V_main_arg2 m c),
       ((h c).2 main_arg3 (Pipeline.mem_restRefs_of main_arg3 (by decide) (by decide))).trans (V_main_arg3 m c)⟩)
    (run_main m ρ)

end Cert.KernelIdeal.Result

end
-- ==== Proof.RefProduct.lean ====
/-
  The reference computes the specification: its last operation is the host's matrix product of the Toeplitz matrix
  (its second to last result) with x, which over the extended reals is, entry by entry, the sum over the contracted index.
-/
import proofs.«105865_j1580547974913_1_alg».proof.Proof.Gen.ReferenceIdeal.Read
import proofs.«105865_j1580547974913_1_alg».proof.Proof.MatProd

noncomputable section

namespace Cert.ReferenceIdeal.Product

open Cert.ReferenceIdeal Cert.ReferenceIdeal.Read Idealize.ShloMosaic Idealize.ShloMosaic.ValueIdx

/-- The reference's result is the product of its Toeplitz matrix with x. -/
theorem result_eq (x0 : (⟨S4096x8192, .f32⟩ : BufTy).Contents (Elt Ideal)) (x1 : (⟨S1, .f32⟩ : BufTy).Contents (Elt Ideal))
    (x2 x3 : (⟨S4095, .f32⟩ : BufTy).Contents (Elt Ideal)) :
    val_main_v18 (F := Ideal) x0 x1 x2 x3 = Cert.Spec.matProd (val_main_v17 (F := Ideal) x1 x2 x3) x0 := by
  funext i
  rw [val_main_v18_apply]
  unfold Cert.Spec.matProd
  refine Finset.sum_congr rfl fun k _ => ?_
  have el : lidx_main_v18 i k = ix2 (⟨(i 0).val, (i 0).isLt⟩ : Fin 4096) k :=
    funext fun a => Fin.ext (by match a with | ⟨0, _⟩ => rfl | ⟨1, _⟩ => rfl)
  have er : ridx_main_v18 i k = ix2 k (⟨(i 1).val, (i 1).isLt⟩ : Fin 8192) :=
    funext fun a => Fin.ext (by match a with | ⟨0, _⟩ => rfl | ⟨1, _⟩ => rfl)
  rw [el, er]

end Cert.ReferenceIdeal.Product

end
-- ==== Proof.lean ====
/-
  Toeplitz matrix times x, tiled: the kernel against jnp.matmul.
  Both programs build the same 4096 x 4096 Toeplitz matrix T from diag, lower, upper by the same host operations. The
  reference then multiplies T by x in one product. The kernel rounds T and x to bf16 and multiplies them on an 8 x 8
  grid, each point forming one 512 x 1024 block of the result from a band of rows of T and a band of columns of x,
  from a zero accumulator. Over the extended reals rounding is the identity and each entry of each block is the sum over
  k of T[i, k] * x[k, j]: the same function of the arguments as the reference's, so no finiteness is used.
  The three runs: the word-level kernel's and the idealized kernel's (Proof/WordRun.lean, Proof/IdealRun.lean: the host
  operations, then the region point by point), and the reference's (its operations composed). The idealization pass
  rewrote nothing, so the idealized kernel is the kernel's own text.
-/
import proofs.«105865_j1580547974913_1_alg».proof.Defs
import proofs.«105865_j1580547974913_1_alg».proof.Proof.Gen.Kernel
import proofs.«105865_j1580547974913_1_alg».proof.Proof.Gen.KernelIdeal
import proofs.«105865_j1580547974913_1_alg».proof.Proof.Gen.ReferenceIdeal
import proofs.«105865_j1580547974913_1_alg».proof.Proof.Gen.Pre_finite_inputs
import proofs.«105865_j1580547974913_1_alg».proof.Proof.WordRun
import proofs.«105865_j1580547974913_1_alg».proof.Proof.IdealValue
import proofs.«105865_j1580547974913_1_alg».proof.Proof.RefProduct
import Idealize.ShloMosaic.Adequacy
import Idealize.ShloMosaic.Init

noncomputable section

namespace Cert.Proof

open Idealize.ShloMosaic Idealize.ShloMosaic.TcCoe Idealize.SL.Sem

/-- The two programs build one Toeplitz matrix: the same operations on the same three arrays. -/
theorem toeplitz_eq (diag : (⟨Cert.KernelIdeal.S1, .f32⟩ : BufTy).Contents (Elt Ideal))
    (lower upper : (⟨Cert.KernelIdeal.S4095, .f32⟩ : BufTy).Contents (Elt Ideal)) :
    Cert.ReferenceIdeal.Read.val_main_v17 (F := Ideal) diag lower upper = Cert.KernelIdeal.Result.toeplitz diag lower upper := rfl

theorem frame_word : Cert.frame_Kernel := fun m ρ _ => Cert.Kernel.Tiled.frame m ρ
theorem frame_ideal : Cert.frame_KernelIdeal := fun m ρ _ => Cert.KernelIdeal.Tiled.frame m ρ
theorem frame_ref : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the four arguments both programs end with the result array at T · x. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v18_eq _ _ _ _).trans
    ((Cert.ReferenceIdeal.Product.result_eq _ _ _ _).trans (by rw [toeplitz_eq]))

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
